-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 111
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .bf16⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .bf16⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .bf16⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .bf16⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S_, .f32⟩
  | .hbm, ⟨92, _⟩ => ⟨S256x128, .f32⟩
  | .hbm, ⟨93, _⟩ => ⟨S50000x1, .i32⟩
  | .hbm, ⟨94, _⟩ => ⟨S256x128, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S256, .f32⟩
  | .hbm, ⟨99, _⟩ => ⟨S50000x1, .i32⟩
  | .hbm, ⟨100, _⟩ => ⟨S256, .f32⟩
  | .hbm, ⟨101, _⟩ => ⟨S_, .f32⟩
  | .hbm, ⟨102, _⟩ => ⟨S256, .f32⟩
  | .hbm, ⟨103, _⟩ => ⟨S256, .f32⟩
  | .hbm, ⟨104, _⟩ => ⟨S256x1, .f32⟩
  | .hbm, ⟨105, _⟩ => ⟨S256x128, .f32⟩
  | .hbm, ⟨106, _⟩ => ⟨S256x128, .f32⟩
  | .hbm, ⟨107, _⟩ => ⟨S256x10, .f32⟩
  | .hbm, ⟨108, _⟩ => ⟨S1x10, .f32⟩
  | .hbm, ⟨109, _⟩ => ⟨S256x10, .f32⟩
  | .hbm, ⟨110, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x1, .f32⟩
  | .hbm, ⟨86, _⟩ => ⟨S850000x128, .f32⟩
  | .hbm, ⟨87, _⟩ => ⟨S850000x128, .f32⟩
  | .hbm, ⟨88, _⟩ => ⟨S_, .f32⟩
  | .hbm, ⟨89, _⟩ => ⟨S50000x128, .f32⟩
  | .hbm, ⟨90, _⟩ => ⟨S850000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S256x128, .f32⟩
  | .hbm, ⟨100, _⟩ => ⟨S50000x1, .i32⟩
  | .hbm, ⟨101, _⟩ => ⟨S256x128, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S256, .f32⟩
  | .hbm, ⟨106, _⟩ => ⟨S50000x1, .i32⟩
  | .hbm, ⟨107, _⟩ => ⟨S256, .f32⟩
  | .hbm, ⟨108, _⟩ => ⟨S_, .f32⟩
  | .hbm, ⟨109, _⟩ => ⟨S256, .f32⟩
  | .hbm, ⟨110, _⟩ => ⟨S256, .f32⟩
  | .hbm, ⟨111, _⟩ => ⟨S256x1, .f32⟩
  | .hbm, ⟨112, _⟩ => ⟨S256x128, .f32⟩
  | .hbm, ⟨113, _⟩ => ⟨S256x128, .f32⟩
  | .hbm, ⟨114, _⟩ => ⟨S256x10, .f32⟩
  | .hbm, ⟨115, _⟩ => ⟨S1x10, .f32⟩
  | .hbm, ⟨116, _⟩ => ⟨S256x10, .f32⟩
  | .hbm, ⟨117, _⟩ => ⟨S256x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x10_S256x10_1_0_0_1_n_n_wf : DotDims.WF S256x128 S128x10 S256x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.KernelRun.lean ====
/-
  The idealized kernel's run with its result named.

  @main is nine segments: stretches of host operations around the three pipelined regions. The buffer contents at each
  segment boundary are a fold from the launch memory (the generated frame's `W0 … W9`); the launch theorem for
  several regions ends with every unscoped buffer at the last boundary's contents, so the result buffer ends at `W9`
  read at its reference, and the argument arrays end as launched.
-/
import proofs.«135094_j1228360647292_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the several-region launch over the generated segments, the last thread
    state read against the final memory at the result buffer as well as at the arguments. -/
theorem run : θ_run defs (onTc (τ := τ) (main (F := F))) ⟨m, fun _ => 0, ρ⟩ (fun r => ∀ c : Dev nD,
      r.2.mem ((c.tc : Thread nD τ).loc main_v80) = W9 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v80 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Run

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Payloads.lean ====
/-
  The arithmetic of the three kernel bodies, read at one entry of the block, over the extended reals.

  A block is 5000 rows of 128 features. Changes of float format are the identity on extended reals, so:
  * the first body is the product of the row block with the 128 x 128 weight: entry (p, q) is the sum over k of
    x(p, k) * w(k, q);
  * the second body first adds the bias row to every row and clamps at the zero word from below, then takes the same
    product with its weight: entry (p, q) is the sum over k of max (x(p, k) + b(0, k)) 0 * w(k, q);
  * the third body is the bias add and the clamp alone: entry (p, q) is max (x(p, q) + b(0, q)) 0.
-/
import proofs.«135094_j1228360647292_2_alg».proof.Proof.Gen.KernelIdeal.Skeleton
import proofs.«135094_j1228360647292_2_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The zero word as an extended real (left unevaluated: both programs clamp at the same word). -/
abbrev zeroWord : EReal := Scalar.ofBits (F := Ideal) .f32 0x00000000#32

/-- The first body at (p, q): row p of the block against column q of the weight. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.LibMatmulNN.matmul_nn_apply (M := 5000) (N := 128) (K := 128)
    dot_S5000x128_S128x128_S5000x128_1_0_0_1_n_n rfl rfl rfl rfl rfl rfl none _ _ p q

/-- The biased, clamped row block of the second and third bodies at (p, k). -/
theorem biasRelu_apply (x0 : Vec Ideal S5000x128 .f32) (b : Vec Ideal S1x128 .f32) (p : Fin 5000) (k : Fin 128) :
    (maximumf (addf (shapeCast S5000x128 x0 shapeCasts_S5000x128_S5000x128)
        (broadcastTo S5000x128 (shapeCast S1x128 b shapeCasts_S1x128_S1x128) broadcasts_S1x128_S5000x128))
      (broadcast S5000x128 (Scalar.ofBits (F := Ideal) .f32 0x00000000#32)) : FVec Ideal S5000x128 .f32) (ix2 p k)
      = max (x0 (ix2 p k) + b (ix2 (0 : Fin 1) k)) zeroWord := by
  rw [shapeCast_self, shapeCast_self]
  show max (x0 (ix2 p k) + broadcastTo S5000x128 b broadcasts_S1x128_S5000x128 (ix2 p k)) zeroWord = _
  rw [broadcastTo_1b_ab_apply (a := 5000) (b := 128) b broadcasts_S1x128_S5000x128 p k]

/-- The second body at (p, q). -/
theorem pay1_apply (x0 : Vec Ideal S5000x128 .f32) (b : Vec Ideal S1x128 .f32) (w : Vec Ideal S128x128 .f32)
    (p : Fin 5000) (q : Fin 128) :
    k1_pay1 (F := Ideal) x0 b w (ix2 p q)
      = ∑ k : Fin 128, max (x0 (ix2 p k) + b (ix2 (0 : Fin 1) k)) zeroWord * w (ix2 k q) := by
  unfold k1_pay1
  refine (Cert.LibMatmulNN.matmul_nn_apply (M := 5000) (N := 128) (K := 128)
    dot_S5000x128_S128x128_S5000x128_1_0_0_1_n_n rfl rfl rfl rfl rfl rfl none _ _ p q).trans ?_
  refine Finset.sum_congr rfl fun k _ => ?_
  exact congrArg (· * w (ix2 k q)) (biasRelu_apply x0 b p k)

/-- The third body at (p, q). -/
theorem pay2_apply (x0 : Vec Ideal S5000x128 .f32) (b : Vec Ideal S1x128 .f32) (p : Fin 5000) (q : Fin 128) :
    k2_pay1 (F := Ideal) x0 b (ix2 p q) = max (x0 (ix2 p q) + b (ix2 (0 : Fin 1) q)) zeroWord := by
  unfold k2_pay1
  exact biasRelu_apply x0 b p q

end Cert.KernelIdeal.Payloads

end
-- ==== Proof.Region0.lean ====
/-
  REGION 0: the first dense product, array by array.

  The pipeline walks ten grid points; point t stages rows 5000 t … 5000 t + 4999 of the row operand and the whole 128 x 128 weight, runs
  the body on them and writes the 5000 x 128 result back to the same rows of the output array. The ten row blocks tile
  the 50000 rows, so the array the region leaves is ONE function of the arrays it found, entry by entry:
  out(r, q) = sum over k of x(r, k) * w(k, q).
-/
import proofs.«135094_j1228360647292_2_alg».proof.Proof.Gen.KernelIdeal.Frame
import proofs.«135094_j1228360647292_2_alg».proof.Proof.Payloads
import Idealize.ShloMosaic.Lib.Pipeline.Value

set_option maxRecDepth 16384

noncomputable section

open scoped BigOperators

namespace Cert.KernelIdeal.Region0

open Cert.KernelIdeal Cert.KernelIdeal.Gen Cert.KernelIdeal.Payloads Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin_eq : (![0, 0] : Fin 2 → Nat) = fun _ => 0 := funext fun a => by fin_cases a <;> rfl

/-- The array the region leaves, as a function of the arrays it found. -/
def result (x : S50000x128.Idx → EReal) (w : S128x128.Idx → EReal) (i : S50000x128.Idx) : EReal :=
  ∑ k : Fin 128, x (ix2 (i 0) k) * w (ix2 k (i 1))

/-- Where each window's block sits at grid point t: the row operand and the output at row block t, every other
    operand whole (decided over the ten points). -/
theorem block_positions : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Every one of the ten row blocks is some point's. -/
theorem block_onto : ∀ q0 : Fin 10, ∃ t : Fin cfg0.N, win0_2.index t = ![q0.val, 0] :=
  (by decide +kernel : ∀ q0 : Fin 10, ∃ t : Fin grid0.N, win0_2.index t = ![q0.val, 0])

/-- Row p of point t's block of the row operand is row 5000 t + p of the array, the same row the output block writes. -/
theorem row_read (c : Dev nD) (t : Fin cfg0.N) (p : Fin 5000) (q k : Fin 128) :
    iblk0 V c 0 t (ix2 p k) = V c main_arg0 (ix2 ((((cfg0.win 2).blk t).view.emb (ix2 p q)) 0) k) := by
  obtain ⟨e0, e1, e2, e3, e4⟩ := block_positions t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = win0_2.index t (0 : Fin 2) * 5000 + 1 * p.val; omega
  | ⟨1, _⟩ => show win0_0.index t (1 : Fin 2) * 128 + 1 * k.val = k.val; omega

/-- The weight's block is the whole weight. -/
theorem weight_read (c : Dev nD) (t : Fin cfg0.N) (p : Fin 5000) (q k : Fin 128) :
    iblk0 V c 1 t (ix2 k q) = V c main_arg3 (ix2 k ((((cfg0.win 2).blk t).view.emb (ix2 p q)) 1)) := by
  obtain ⟨e0, e1, e2, e3, e4⟩ := block_positions t
  show V c main_arg3 (((cfg0.win 1).blk t).view.emb (ix2 k q)) = _
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 128 + 1 * q.val = win0_2.index t (1 : Fin 2) * 128 + 1 * q.val; omega

/-- What point t writes back is block t of `result`. -/
theorem flushed_eq (c : Dev nD) (t : Fin cfg0.N) :
    (dat0 V c).flushed 2 t = ((cfg0.win 2).blk t).view.read (Elt Ideal) (result (V c main_arg0) (V c main_arg3)) := by
  show (cfg0.win 2).cut (grid0.coords t) ((dat0 V c).after 2 t) = _
  rw [after0_2]
  unfold out0_2
  rw [View.canon_unit_zero origin_eq]
  simp only [View.ld_unit_zero (S := S5000x128) origin_eq, View.ld_unit_zero (S := S128x128) origin_eq]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = result (V c main_arg0) (V c main_arg3) (((cfg0.win 2).blk t).view.emb (ix2 p q))
  refine (pay0_apply (iblk0 V c 0 t) (iblk0 V c 1 t) p q).trans ?_
  unfold result
  refine Finset.sum_congr rfl fun k _ => ?_
  rw [row_read V c t p q k, weight_read V c t p q k]

/-- An index of the array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r lies in the block of point r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region. -/
theorem final (c : Dev nD) : (dat0 V c).arrAt 2 cfg0.N = result (V c main_arg0) (V c main_arg3) :=
  (dat0 V c).arrAt_eq_of_cover 2 (result (V c main_arg0) (V c main_arg3)) (fun t _ => flushed_eq V c t) covered

end Cert.KernelIdeal.Region0

end
-- ==== Proof.Region1.lean ====
/-
  REGION 1: bias, clamp and the second dense product, array by array.

  The pipeline walks ten grid points; point t stages rows 5000 t … 5000 t + 4999 of the row operand, the one bias row and the whole 128 x 128 weight, runs
  the body on them and writes the 5000 x 128 result back to the same rows of the output array. The ten row blocks tile
  the 50000 rows, so the array the region leaves is ONE function of the arrays it found, entry by entry:
  out(r, q) = sum over k of max (y(r, k) + b(0, k)) 0 * w(k, q).
-/
import proofs.«135094_j1228360647292_2_alg».proof.Proof.Gen.KernelIdeal.Frame
import proofs.«135094_j1228360647292_2_alg».proof.Proof.Payloads
import Idealize.ShloMosaic.Lib.Pipeline.Value

set_option maxRecDepth 16384

noncomputable section

open scoped BigOperators

namespace Cert.KernelIdeal.Region1

open Cert.KernelIdeal Cert.KernelIdeal.Gen Cert.KernelIdeal.Payloads Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin_eq : (![0, 0] : Fin 2 → Nat) = fun _ => 0 := funext fun a => by fin_cases a <;> rfl

/-- The array the region leaves, as a function of the arrays it found. -/
def result (y : S50000x128.Idx → EReal) (b : S1x128.Idx → EReal) (w : S128x128.Idx → EReal) (i : S50000x128.Idx) : EReal :=
  ∑ k : Fin 128, max (y (ix2 (i 0) k) + b (ix2 (0 : Fin 1) k)) zeroWord * w (ix2 k (i 1))

/-- Where each window's block sits at grid point t: the row operand and the output at row block t, every other
    operand whole (decided over the ten points). -/
theorem block_positions : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0 :=
  (by decide +kernel : ∀ t : Fin grid1.N, _)

/-- Every one of the ten row blocks is some point's. -/
theorem block_onto : ∀ q0 : Fin 10, ∃ t : Fin cfg1.N, win1_3.index t = ![q0.val, 0] :=
  (by decide +kernel : ∀ q0 : Fin 10, ∃ t : Fin grid1.N, win1_3.index t = ![q0.val, 0])

/-- Row p of point t's block of the row operand is row 5000 t + p of the array, the same row the output block writes. -/
theorem row_read (c : Dev nD) (t : Fin cfg1.N) (p : Fin 5000) (q k : Fin 128) :
    iblk1 V c 0 t (ix2 p k) = V c main_v46 (ix2 ((((cfg1.win 3).blk t).view.emb (ix2 p q)) 0) k) := by
  obtain ⟨e0, e1, e2, e3, e4, e5, e6⟩ := block_positions t
  show V c main_v46 (((cfg1.win 0).blk t).view.emb (ix2 p k)) = _
  refine congrArg (V c main_v46) (funext fun a => Fin.ext ?_)
  match a with
  | ⟨0, _⟩ => show win1_0.index t (0 : Fin 2) * 5000 + 1 * p.val = win1_3.index t (0 : Fin 2) * 5000 + 1 * p.val; omega
  | ⟨1, _⟩ => show win1_0.index t (1 : Fin 2) * 128 + 1 * k.val = k.val; omega

/-- The bias block is the whole bias row. -/
theorem bias_read (c : Dev nD) (t : Fin cfg1.N) (k : Fin 128) :
    iblk1 V c 1 t (ix2 (0 : Fin 1) k) = V c main_v47 (ix2 (0 : Fin 1) k) := by
  obtain ⟨e0, e1, e2, e3, e4, e5, e6⟩ := block_positions t
  show V c main_v47 (((cfg1.win 1).blk t).view.emb (ix2 (0 : Fin 1) k)) = _
  refine congrArg (V c main_v47) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- The weight's block is the whole weight. -/
theorem weight_read (c : Dev nD) (t : Fin cfg1.N) (p : Fin 5000) (q k : Fin 128) :
    iblk1 V c 2 t (ix2 k q) = V c main_arg5 (ix2 k ((((cfg1.win 3).blk t).view.emb (ix2 p q)) 1)) := by
  obtain ⟨e0, e1, e2, e3, e4, e5, e6⟩ := block_positions t
  show V c main_arg5 (((cfg1.win 2).blk t).view.emb (ix2 k q)) = _
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 128 + 1 * q.val = win1_3.index t (1 : Fin 2) * 128 + 1 * q.val; omega

/-- What point t writes back is block t of `result`. -/
theorem flushed_eq (c : Dev nD) (t : Fin cfg1.N) :
    (dat1 V c).flushed 3 t = ((cfg1.win 3).blk t).view.read (Elt Ideal) (result (V c main_v46) (V c main_v47) (V c main_arg5)) := by
  show (cfg1.win 3).cut (grid1.coords t) ((dat1 V c).after 3 t) = _
  rw [after1_3]
  unfold out1_3
  rw [View.canon_unit_zero origin_eq]
  simp only [View.ld_unit_zero (S := S5000x128) origin_eq, View.ld_unit_zero (S := S1x128) origin_eq, View.ld_unit_zero (S := S128x128) origin_eq]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q) = result (V c main_v46) (V c main_v47) (V c main_arg5) (((cfg1.win 3).blk t).view.emb (ix2 p q))
  refine (pay1_apply (iblk1 V c 0 t) (iblk1 V c 1 t) (iblk1 V c 2 t) p q).trans ?_
  unfold result
  refine Finset.sum_congr rfl fun k _ => ?_
  rw [row_read V c t p q k, bias_read V c t k, weight_read V c t p q k]

/-- An index of the array is in point t's block iff each coordinate is in the block's range on its axis. -/
theorem mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v48).slice (win1_3.rect t)).set ↔ _
  rw [View.set_slice_whole, Rect.mem_set_unit]
  exact Iff.rfl

/-- Row r lies in the block of point r / 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region. -/
theorem final (c : Dev nD) : (dat1 V c).arrAt 3 cfg1.N = result (V c main_v46) (V c main_v47) (V c main_arg5) :=
  (dat1 V c).arrAt_eq_of_cover 3 (result (V c main_v46) (V c main_v47) (V c main_arg5)) (fun t _ => flushed_eq V c t) covered

end Cert.KernelIdeal.Region1

end
-- ==== Proof.Region2.lean ====
/-
  REGION 2: the last bias and clamp, array by array.

  The pipeline walks ten grid points; point t stages rows 5000 t … 5000 t + 4999 of the row operand and the one bias row, runs
  the body on them and writes the 5000 x 128 result back to the same rows of the output array. The ten row blocks tile
  the 50000 rows, so the array the region leaves is ONE function of the arrays it found, entry by entry:
  out(r, q) = max (y(r, q) + b(0, q)) 0.
-/
import proofs.«135094_j1228360647292_2_alg».proof.Proof.Gen.KernelIdeal.Frame
import proofs.«135094_j1228360647292_2_alg».proof.Proof.Payloads
import Idealize.ShloMosaic.Lib.Pipeline.Value

set_option maxRecDepth 16384

noncomputable section

open scoped BigOperators

namespace Cert.KernelIdeal.Region2

open Cert.KernelIdeal Cert.KernelIdeal.Gen Cert.KernelIdeal.Payloads Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin_eq : (![0, 0] : Fin 2 → Nat) = fun _ => 0 := funext fun a => by fin_cases a <;> rfl

/-- The array the region leaves, as a function of the arrays it found. -/
def result (y : S50000x128.Idx → EReal) (b : S1x128.Idx → EReal) (i : S50000x128.Idx) : EReal :=
  max (y i + b (ix2 (0 : Fin 1) (i 1))) zeroWord

/-- Where each window's block sits at grid point t: the row operand and the output at row block t, every other
    operand whole (decided over the ten points). -/
theorem block_positions : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 :=
  (by decide +kernel : ∀ t : Fin grid2.N, _)

/-- Every one of the ten row blocks is some point's. -/
theorem block_onto : ∀ q0 : Fin 10, ∃ t : Fin cfg2.N, win2_2.index t = ![q0.val, 0] :=
  (by decide +kernel : ∀ q0 : Fin 10, ∃ t : Fin grid2.N, win2_2.index t = ![q0.val, 0])

/-- Entry (p, q) of point t's block of the row operand is the entry of the array the output block writes. -/
theorem row_read (c : Dev nD) (t : Fin cfg2.N) (p : Fin 5000) (q : Fin 128) :
    iblk2 V c 0 t (ix2 p q) = V c main_v62 (((cfg2.win 2).blk t).view.emb (ix2 p q)) := by
  obtain ⟨e0, e1, e2, e3, e4⟩ := block_positions t
  show V c main_v62 (((cfg2.win 0).blk t).view.emb (ix2 p q)) = _
  refine congrArg (V c main_v62) (funext fun a => Fin.ext ?_)
  match a with
  | ⟨0, _⟩ => show win2_0.index t (0 : Fin 2) * 5000 + 1 * p.val = win2_2.index t (0 : Fin 2) * 5000 + 1 * p.val; omega
  | ⟨1, _⟩ => show win2_0.index t (1 : Fin 2) * 128 + 1 * q.val = win2_2.index t (1 : Fin 2) * 128 + 1 * q.val; omega

/-- The bias block is the whole bias row, read at the output entry's column. -/
theorem bias_read (c : Dev nD) (t : Fin cfg2.N) (p : Fin 5000) (q : Fin 128) :
    iblk2 V c 1 t (ix2 (0 : Fin 1) q) = V c main_v63 (ix2 (0 : Fin 1) ((((cfg2.win 2).blk t).view.emb (ix2 p q)) 1)) := by
  obtain ⟨e0, e1, e2, e3, e4⟩ := block_positions t
  show V c main_v63 (((cfg2.win 1).blk t).view.emb (ix2 (0 : Fin 1) q)) = _
  refine congrArg (V c main_v63) (funext fun a => Fin.ext ?_)
  match a with
  | ⟨0, _⟩ => show win2_1.index t (0 : Fin 2) * 1 + 1 * 0 = 0; omega
  | ⟨1, _⟩ => show win2_1.index t (1 : Fin 2) * 128 + 1 * q.val = win2_2.index t (1 : Fin 2) * 128 + 1 * q.val; omega

/-- What point t writes back is block t of `result`. -/
theorem flushed_eq (c : Dev nD) (t : Fin cfg2.N) :
    (dat2 V c).flushed 2 t = ((cfg2.win 2).blk t).view.read (Elt Ideal) (result (V c main_v62) (V c main_v63)) := by
  show (cfg2.win 2).cut (grid2.coords t) ((dat2 V c).after 2 t) = _
  rw [after2_2]
  unfold out2_2
  rw [View.canon_unit_zero origin_eq]
  simp only [View.ld_unit_zero (S := S5000x128) origin_eq, View.ld_unit_zero (S := S1x128) origin_eq]
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q) = result (V c main_v62) (V c main_v63) (((cfg2.win 2).blk t).view.emb (ix2 p q))
  refine (pay2_apply (iblk2 V c 0 t) (iblk2 V c 1 t) p q).trans ?_
  unfold result
  rw [row_read V c t p q, bias_read V c t p q]

/-- An index of the array is in point t's block iff each coordinate is in the block's range on its axis. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v64).slice (win2_2.rect t)).set ↔ _
  rw [View.set_slice_whole, Rect.mem_set_unit]
  exact Iff.rfl

/-- Row r lies in the block of point r / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region. -/
theorem final (c : Dev nD) : (dat2 V c).arrAt 2 cfg2.N = result (V c main_v62) (V c main_v63) :=
  (dat2 V c).arrAt_eq_of_cover 2 (result (V c main_v62) (V c main_v63)) (fun t _ => flushed_eq V c t) covered

end Cert.KernelIdeal.Region2

end
-- ==== Proof.HostChain.lean ====
/-
  The idealized kernel's result, boundary by boundary, as the reference's stages of the arguments.

  The buffer contents at the nine segment boundaries of @main are a fold from the launch memory. Read at the buffers
  that matter, each boundary holds one of the stages the reference computes:
  * after the host prefix: the source and target lists with the self loops appended, and the edge weights
    dinv[src] * dinv[dst] — the same operations in both programs;
  * after region 0: x · W1 (the region's row blocks tile the array; a block's entry is the row-by-column sum);
  * after the first aggregation: the weighted rows gathered and summed into their targets — the gather reads rows
    of the product whether it is kept in the narrow or the wide float format, both being the identity on extended reals;
  * after region 1: max (agg1 + b1, 0) · W2, entry by entry the reference's bias add, clamp and product;
  * after the second aggregation and region 2: max (agg2 + b2, 0);
  * after the host suffix: the mean pool over the graphs and the classifier head — again the same operations.
  No law of arithmetic beyond the identity of the two float formats is used, so finiteness of the inputs is never opened.
-/
import proofs.«135094_j1228360647292_2_alg».proof.Proof.Gen.KernelIdeal.Frame
import proofs.«135094_j1228360647292_2_alg».proof.Proof.Region0
import proofs.«135094_j1228360647292_2_alg».proof.Proof.Region1
import proofs.«135094_j1228360647292_2_alg».proof.Proof.Region2
import proofs.«135094_j1228360647292_2_alg».proof.Proof.RefRead
import Idealize.ShloMosaic.Lib.StableHlo.Run
import Idealize.ShloMosaic.Lib.ValueLayout

set_option maxRecDepth 16384

noncomputable section

open scoped BigOperators

namespace Cert.KernelIdeal.Chain

open Cert.KernelIdeal Cert.KernelIdeal.Gen Cert.KernelIdeal.Payloads
open Idealize.ShloMosaic Idealize.ShloMosaic.TcCoe Idealize.SL.Sem Idealize.ShloMosaic.StableHlo Idealize.ShloMosaic.ValueIdx
open Cert.ReferenceIdeal.ReadP

variable (m : (ℓ : Loc nD τ sig) → Buf (Elt Ideal) ℓ) (ρ : Dev nD → PrngReg) (c : Dev nD)

/-- A buffer that no operation of a host stretch writes keeps its contents through the stretch. -/
macro "kept_through " ops:ident ", " r:ident : tactic =>
  `(tactic| exact StableHlo.after_of_forall_not_mem (b := Proc.devRef .tc $r) _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What is carried unchanged across boundaries -/

/-- Argument 0 is still as launched when segment boundary 3 is reached: nothing before it writes it. -/
theorem arg0_at3 : W3 m ρ c (Proc.devRef .tc main_arg0) = m ((c : Thread nD τ).loc main_arg0) :=
  calc W3 m ρ c (Proc.devRef .tc main_arg0)
    _ = W2 m ρ c (Proc.devRef .tc main_arg0) := by kept_through hostOps0_2, main_arg0
    _ = W1 m ρ c (Proc.devRef .tc main_arg0) := by kept_through hostOps0_1, main_arg0
    _ = W0 m ρ c (Proc.devRef .tc main_arg0) := by kept_through hostOps0, main_arg0
    _ = m ((c : Thread nD τ).loc main_arg0) := rfl

/-- Argument 3 is still as launched when segment boundary 3 is reached: nothing before it writes it. -/
theorem arg3_at3 : W3 m ρ c (Proc.devRef .tc main_arg3) = m ((c : Thread nD τ).loc main_arg3) :=
  calc W3 m ρ c (Proc.devRef .tc main_arg3)
    _ = W2 m ρ c (Proc.devRef .tc main_arg3) := by kept_through hostOps0_2, main_arg3
    _ = W1 m ρ c (Proc.devRef .tc main_arg3) := by kept_through hostOps0_1, main_arg3
    _ = W0 m ρ c (Proc.devRef .tc main_arg3) := by kept_through hostOps0, main_arg3
    _ = m ((c : Thread nD τ).loc main_arg3) := rfl

/-- Argument 4 is still as launched when segment boundary 4 is reached: nothing before it writes it. -/
theorem arg4_at4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by kept_through hostOps0_2, main_arg4
    _ = W1 m ρ c (Proc.devRef .tc main_arg4) := by kept_through hostOps0_1, main_arg4
    _ = W0 m ρ c (Proc.devRef .tc main_arg4) := by kept_through hostOps0, main_arg4
    _ = m ((c : Thread nD τ).loc main_arg4) := rfl

/-- Argument 5 is still as launched when segment boundary 5 is reached: nothing before it writes it. -/
theorem arg5_at5 : W5 m ρ c (Proc.devRef .tc main_arg5) = m ((c : Thread nD τ).loc main_arg5) :=
  calc W5 m ρ c (Proc.devRef .tc main_arg5)
    _ = W4 m ρ c (Proc.devRef .tc main_arg5) := by kept_through hostOps1, main_arg5
    _ = W3 m ρ c (Proc.devRef .tc main_arg5) := W4_of_ne m ρ c main_arg5 (by decide)
    _ = W2 m ρ c (Proc.devRef .tc main_arg5) := by kept_through hostOps0_2, main_arg5
    _ = W1 m ρ c (Proc.devRef .tc main_arg5) := by kept_through hostOps0_1, main_arg5
    _ = W0 m ρ c (Proc.devRef .tc main_arg5) := by kept_through hostOps0, main_arg5
    _ = m ((c : Thread nD τ).loc main_arg5) := rfl

/-- Argument 6 is still as launched when segment boundary 6 is reached: nothing before it writes it. -/
theorem arg6_at6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by kept_through hostOps1, main_arg6
    _ = W3 m ρ c (Proc.devRef .tc main_arg6) := W4_of_ne m ρ c main_arg6 (by decide)
    _ = W2 m ρ c (Proc.devRef .tc main_arg6) := by kept_through hostOps0_2, main_arg6
    _ = W1 m ρ c (Proc.devRef .tc main_arg6) := by kept_through hostOps0_1, main_arg6
    _ = W0 m ρ c (Proc.devRef .tc main_arg6) := by kept_through hostOps0, main_arg6
    _ = m ((c : Thread nD τ).loc main_arg6) := rfl

/-- Argument 2 is still as launched when segment boundary 8 is reached: nothing before it writes it. -/
theorem arg2_at8 : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by kept_through hostOps2, main_arg2
    _ = W5 m ρ c (Proc.devRef .tc main_arg2) := W6_of_ne m ρ c main_arg2 (by decide)
    _ = W4 m ρ c (Proc.devRef .tc main_arg2) := by kept_through hostOps1, main_arg2
    _ = W3 m ρ c (Proc.devRef .tc main_arg2) := W4_of_ne m ρ c main_arg2 (by decide)
    _ = W2 m ρ c (Proc.devRef .tc main_arg2) := by kept_through hostOps0_2, main_arg2
    _ = W1 m ρ c (Proc.devRef .tc main_arg2) := by kept_through hostOps0_1, main_arg2
    _ = W0 m ρ c (Proc.devRef .tc main_arg2) := by kept_through hostOps0, main_arg2
    _ = m ((c : Thread nD τ).loc main_arg2) := rfl

/-- Argument 7 is still as launched when segment boundary 8 is reached: nothing before it writes it. -/
theorem arg7_at8 : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by kept_through hostOps2, main_arg7
    _ = W5 m ρ c (Proc.devRef .tc main_arg7) := W6_of_ne m ρ c main_arg7 (by decide)
    _ = W4 m ρ c (Proc.devRef .tc main_arg7) := by kept_through hostOps1, main_arg7
    _ = W3 m ρ c (Proc.devRef .tc main_arg7) := W4_of_ne m ρ c main_arg7 (by decide)
    _ = W2 m ρ c (Proc.devRef .tc main_arg7) := by kept_through hostOps0_2, main_arg7
    _ = W1 m ρ c (Proc.devRef .tc main_arg7) := by kept_through hostOps0_1, main_arg7
    _ = W0 m ρ c (Proc.devRef .tc main_arg7) := by kept_through hostOps0, main_arg7
    _ = m ((c : Thread nD τ).loc main_arg7) := rfl

/-- Argument 8 is still as launched when segment boundary 8 is reached: nothing before it writes it. -/
theorem arg8_at8 : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by kept_through hostOps2, main_arg8
    _ = W5 m ρ c (Proc.devRef .tc main_arg8) := W6_of_ne m ρ c main_arg8 (by decide)
    _ = W4 m ρ c (Proc.devRef .tc main_arg8) := by kept_through hostOps1, main_arg8
    _ = W3 m ρ c (Proc.devRef .tc main_arg8) := W4_of_ne m ρ c main_arg8 (by decide)
    _ = W2 m ρ c (Proc.devRef .tc main_arg8) := by kept_through hostOps0_2, main_arg8
    _ = W1 m ρ c (Proc.devRef .tc main_arg8) := by kept_through hostOps0_1, main_arg8
    _ = W0 m ρ c (Proc.devRef .tc main_arg8) := by kept_through hostOps0, main_arg8
    _ = m ((c : Thread nD τ).loc main_arg8) := rfl

/-- `main_v3` at boundary 4 is what the host prefix left at boundary 3. -/
theorem v3_at4 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- `main_v6` at boundary 4 is what the host prefix left at boundary 3. -/
theorem v6_at4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- `main_v31` at boundary 4 is what the host prefix left at boundary 3. -/
theorem v31_at4 : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- `main_v3` at boundary 6 is what the host prefix left at boundary 3. -/
theorem v3_at6 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by kept_through hostOps1, main_v3
    _ = W3 m ρ c (Proc.devRef .tc main_v3) := W4_of_ne m ρ c main_v3 (by decide)

/-- `main_v6` at boundary 6 is what the host prefix left at boundary 3. -/
theorem v6_at6 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by kept_through hostOps1, main_v6
    _ = W3 m ρ c (Proc.devRef .tc main_v6) := W4_of_ne m ρ c main_v6 (by decide)

/-- `main_v31` at boundary 6 is what the host prefix left at boundary 3. -/
theorem v31_at6 : W6 m ρ c (Proc.devRef .tc main_v31) = W3 m ρ c (Proc.devRef .tc main_v31) :=
  calc W6 m ρ c (Proc.devRef .tc main_v31)
    _ = W5 m ρ c (Proc.devRef .tc main_v31) := W6_of_ne m ρ c main_v31 (by decide)
    _ = W4 m ρ c (Proc.devRef .tc main_v31) := by kept_through hostOps1, main_v31
    _ = W3 m ρ c (Proc.devRef .tc main_v31) := W4_of_ne m ρ c main_v31 (by decide)

/-! ## The host prefix: the edge lists and the edge weights -/

/-- The source list with the self loops appended. -/
theorem src_eq : W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  rfl

/-- The target list with the self loops appended. -/
theorem dst_eq : W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  rfl

/-- The source list, already complete after the first stretch. -/
theorem src_first : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The target list, already complete after the first stretch. -/
theorem dst_first : W1 m ρ c (Proc.devRef .tc main_v6) = val_main_v6 (F := Ideal) (m ((c : Thread nD τ).loc main_arg1)) := by
  show StableHlo.after hostOps0 (W0 m ρ c) (Proc.devRef .tc main_v6) = _
  after_results_simp
  rfl

/-- Which nodes have a positive degree (all do, each having its self loop; the programs still test it). -/
theorem deg_pos_first : W1 m ρ c (Proc.devRef .tc main_v12) = val_main_v12 (F := Ideal) (m ((c : Thread nD τ).loc main_arg1)) := by
  show StableHlo.after hostOps0 (W0 m ρ c) (Proc.devRef .tc main_v12) = _
  after_results_simp
  rfl

/-- The reciprocal square roots of the degrees clamped at one from below. -/
theorem deg_rsqrt_first : W1 m ρ c (Proc.devRef .tc main_v15) = val_main_v15 (F := Ideal) (m ((c : Thread nD τ).loc main_arg1)) := by
  show StableHlo.after hostOps0 (W0 m ρ c) (Proc.devRef .tc main_v15) = _
  after_results_simp
  rfl

/-- The zero word the degree test falls back to. -/
theorem zero_first : W1 m ρ c (Proc.devRef .tc main_cst_3) = val_main_cst_3 (F := Ideal) := by
  show StableHlo.after hostOps0 (W0 m ρ c) (Proc.devRef .tc main_cst_3) = _
  after_results_simp
  rfl

/-- The second stretch is the outlined `where`: from ANY contents it leaves, at the normaliser's buffer, the select of
    the three buffers it reads (the typed references' transports are the identity at these literal references). -/
theorem where_stage (U : Valuation τ sig (Elt Ideal)) :
    StableHlo.after hostOps0_1 U (Proc.devRef .tc main_v16)
      = select (U (Proc.devRef .tc main_v12)) (U (Proc.devRef .tc main_v15))
          (broadcastInDim S50000 ![] bcast_S_S50000 (id (U (Proc.devRef .tc main_cst_3)))) := by
  simp only [hostOps0_1, after_cons, after_nil]
  rfl

/-- The degree normaliser dinv after the second stretch: the reciprocal square root where the degree is positive,
    the zero word elsewhere. -/
theorem dinv_second : W2 m ρ c (Proc.devRef .tc main_v16) = val_main_v16 (F := Ideal) (m ((c : Thread nD τ).loc main_arg1)) := by
  refine (where_stage (W1 m ρ c)).trans ?_
  rw [deg_pos_first m ρ c, deg_rsqrt_first m ρ c, zero_first m ρ c]
  rfl

/-- The second stretch leaves the source list alone. -/
theorem src_second : W2 m ρ c (Proc.devRef .tc main_v3) = val_main_v3 (F := Ideal) (m ((c : Thread nD τ).loc main_arg1)) :=
  (show W2 m ρ c (Proc.devRef .tc main_v3) = W1 m ρ c (Proc.devRef .tc main_v3) from by kept_through hostOps0_1, main_v3).trans (src_first m ρ c)

/-- The second stretch leaves the target list alone. -/
theorem dst_second : W2 m ρ c (Proc.devRef .tc main_v6) = val_main_v6 (F := Ideal) (m ((c : Thread nD τ).loc main_arg1)) :=
  (show W2 m ρ c (Proc.devRef .tc main_v6) = W1 m ρ c (Proc.devRef .tc main_v6) from by kept_through hostOps0_1, main_v6).trans (dst_first m ρ c)

/-- The edge weights dinv[src] * dinv[dst]: the third stretch reads the normaliser and the two lists and nothing else. -/
theorem norm_eq : W3 m ρ c (Proc.devRef .tc main_v31) = val_main_v31 (F := Ideal) (m ((c : Thread nD τ).loc main_arg1)) := by
  have h16 := dinv_second m ρ c
  have h3 := src_second m ρ c
  have h6 := dst_second m ρ c
  show StableHlo.after hostOps0_2 (W2 m ρ c) (Proc.devRef .tc main_v31) = _
  generalize W2 m ρ c = U at h16 h3 h6 ⊢
  after_results_simp
  rw [h16, h3, h6]
  rfl

/-! ## Region 0 and the first aggregation -/

/-- After region 0 the product array holds x · W1. -/
theorem prod1_eq : W4 m ρ c (Proc.devRef .tc main_v32) = val_main_v32 (F := Ideal) (m ((c : Thread nD τ).loc main_arg0)) (m ((c : Thread nD τ).loc main_arg3)) := by
  refine (W4_arr m ρ c 2).trans ((Region0.final (V3 m ρ) c).trans ?_)
  show Region0.result (W3 m ρ c (Proc.devRef .tc main_arg0)) (W3 m ρ c (Proc.devRef .tc main_arg3)) = _
  rw [arg0_at3 m ρ c, arg3_at3 m ρ c]
  funext i
  rw [val_main_v32_apply]
  unfold Region0.result
  refine Finset.sum_congr rfl fun k _ => ?_
  have el : (ix2 (i 0) k : S50000x128.Idx) = lidx_main_v32 i k := funext fun a => by
    match a with
    | ⟨0, _⟩ => rfl
    | ⟨1, _⟩ => rfl
  have er : (ix2 k (i 1) : S128x128.Idx) = ridx_main_v32 i k := funext fun a => by
    match a with
    | ⟨0, _⟩ => rfl
    | ⟨1, _⟩ => rfl
  rw [el, er]

/-- The first aggregation: the rows of x · W1 gathered at the sources, weighted, summed into the targets. -/
theorem agg1_eq : W5 m ρ c (Proc.devRef .tc main_v46) = val_main_v45 (F := Ideal) (m ((c : Thread nD τ).loc main_arg0)) (m ((c : Thread nD τ).loc main_arg1)) (m ((c : Thread nD τ).loc main_arg3)) := by
  show StableHlo.after hostOps1 (W4 m ρ c) (Proc.devRef .tc main_v46) = _
  after_results_simp
  rw [v3_at4 m ρ c, v6_at4 m ρ c, v31_at4 m ρ c, src_eq m ρ c, dst_eq m ρ c, norm_eq m ρ c, prod1_eq m ρ c]
  rfl

/-- The first bias, laid out as one row. -/
theorem bias1_eq (k : Fin 128) :
    W5 m ρ c (Proc.devRef .tc main_v47) (ix2 (0 : Fin 1) k) = (m ((c : Thread nD τ).loc main_arg4)) (ix1 k) := by
  show StableHlo.after hostOps1 (W4 m ρ c) (Proc.devRef .tc main_v47) (ix2 (0 : Fin 1) k) = _
  after_results_simp
  rw [arg4_at4 m ρ c]
  exact shapeCast_a_1a_apply (a := 128) _ _ 0 k

/-! ## Region 1 and the second aggregation -/

/-- After region 1 the product array holds max (agg1 + b1, 0) · W2. -/
theorem prod2_eq : W6 m ρ c (Proc.devRef .tc main_v48) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ((Region1.final (V5 m ρ) c).trans ?_)
  show Region1.result (W5 m ρ c (Proc.devRef .tc main_v46)) (W5 m ρ c (Proc.devRef .tc main_v47)) (W5 m ρ c (Proc.devRef .tc main_arg5)) = _
  rw [agg1_eq m ρ c, arg5_at5 m ρ c]
  funext i
  rw [val_main_v50_apply]
  unfold Region1.result
  refine Finset.sum_congr rfl fun k _ => ?_
  rw [bias1_eq m ρ c k]
  have el : (ix2 (i 0) k : S50000x128.Idx) = lidx_main_v50 i k := funext fun a => by
    match a with
    | ⟨0, _⟩ => rfl
    | ⟨1, _⟩ => rfl
  have er : (ix2 k (i 1) : S128x128.Idx) = ridx_main_v50 i k := funext fun a => by
    match a with
    | ⟨0, _⟩ => rfl
    | ⟨1, _⟩ => rfl
  have eb : idx_main_v46 (idx_main_v47 (lidx_main_v50 i k)) = (ix1 k : S128.Idx) := funext fun a => by
    match a with
    | ⟨0, _⟩ => rfl
  rw [el, er, val_main_v49_apply, val_main_v48_apply, val_main_v47_apply, val_main_v46_apply, val_main_call1_v0_apply,
    val_main_call1_cst_apply, eb]
  rfl

/-- The second aggregation. -/
theorem agg2_eq : W7 m ρ c (Proc.devRef .tc main_v62) = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W6 m ρ c) (Proc.devRef .tc main_v62) = _
  after_results_simp
  rw [v3_at6 m ρ c, v6_at6 m ρ c, v31_at6 m ρ c, src_eq m ρ c, dst_eq m ρ c, norm_eq m ρ c, prod2_eq m ρ c]
  rfl

/-- The second bias, laid out as one row. -/
theorem bias2_eq (k : Fin 128) :
    W7 m ρ c (Proc.devRef .tc main_v63) (ix2 (0 : Fin 1) k) = (m ((c : Thread nD τ).loc main_arg6)) (ix1 k) := by
  show StableHlo.after hostOps2 (W6 m ρ c) (Proc.devRef .tc main_v63) (ix2 (0 : Fin 1) k) = _
  after_results_simp
  rw [arg6_at6 m ρ c]
  exact shapeCast_a_1a_apply (a := 128) _ _ 0 k

/-! ## Region 2 and the host suffix -/

/-- After region 2 the activation array holds max (agg2 + b2, 0). -/
theorem act2_eq : W8 m ρ c (Proc.devRef .tc main_v64) = val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 2).trans ((Region2.final (V7 m ρ) c).trans ?_)
  show Region2.result (W7 m ρ c (Proc.devRef .tc main_v62)) (W7 m ρ c (Proc.devRef .tc main_v63)) = _
  rw [agg2_eq m ρ c]
  funext i
  unfold Region2.result
  rw [bias2_eq m ρ c (i 1)]
  have eb : idx_main_v64 (idx_main_v65 i) = (ix1 (i 1) : S128.Idx) := funext fun a => by
    match a with
    | ⟨0, _⟩ => rfl
  rw [val_main_v67_apply, val_main_v66_apply, val_main_v65_apply, val_main_v64_apply, val_main_call2_v0_apply,
    val_main_call2_cst_apply, eb]
  rfl

/-- The result: the mean pool over the graphs and the classifier head of the last activation. -/
theorem result_eq : W9 m ρ c (Proc.devRef .tc main_v80)
    = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W8 m ρ c) (Proc.devRef .tc main_v80) = _
  after_results_simp
  rw [act2_eq m ρ c, arg2_at8 m ρ c, arg7_at8 m ρ c, arg8_at8 m ρ c]
  rfl

end Cert.KernelIdeal.Chain

end
-- ==== Proof.lean ====
/-
  A two-layer graph convolution network with a mean pool and a linear head: the kernel against its jnp reference, over the
  extended reals.

  Both programs build the same edge lists (the given edges plus one self loop per node), the same degrees and the same
  edge weights dinv[src] * dinv[dst] on the host, by the same operations. A layer is h ↦ aggregate (h · W) + b followed by
  a clamp at zero, where aggregate gathers the rows at the sources, scales each by its edge weight and sums it into its
  target row. The reference computes every stage on the host. The kernel computes the three dense stages in pipelined
  regions over blocks of 5000 rows — x · W1; max (agg1 + b1, 0) · W2; max (agg2 + b2, 0) — and keeps the two products in
  a narrower float format before the gather. Over the extended reals a change of float format is the identity, a
  product accumulated from a zero word is the plain sum over the contracted axis, and the ten row blocks tile the
  50000 rows, so each region's output array is, entry by entry, the reference's stage of the same name
  (Proof/Region0.lean … Region2.lean, Proof/HostChain.lean). The gathers, the scatter sums, the pool and the head are
  the same operations applied to equal arrays. Nothing is rearranged, so the inputs' finiteness is not used.

  The frames of the two kernel programs are the generated ones; the reference's frame is its run with the result
  dropped; the idealization rewrote nothing, so `preserves` is `True`.
-/
import proofs.«135094_j1228360647292_2_alg».proof.Defs
import proofs.«135094_j1228360647292_2_alg».proof.Proof.Gen.Kernel
import proofs.«135094_j1228360647292_2_alg».proof.Proof.Gen.Kernel.Skeleton
import proofs.«135094_j1228360647292_2_alg».proof.Proof.Gen.Kernel.Launch
import proofs.«135094_j1228360647292_2_alg».proof.Proof.Gen.Kernel.Points
import proofs.«135094_j1228360647292_2_alg».proof.Proof.Gen.Kernel.Frame
import proofs.«135094_j1228360647292_2_alg».proof.Proof.Gen.KernelIdeal
import proofs.«135094_j1228360647292_2_alg».proof.Proof.Gen.KernelIdeal.Skeleton
import proofs.«135094_j1228360647292_2_alg».proof.Proof.Gen.KernelIdeal.Launch
import proofs.«135094_j1228360647292_2_alg».proof.Proof.Gen.KernelIdeal.Points
import proofs.«135094_j1228360647292_2_alg».proof.Proof.Gen.KernelIdeal.Frame
import proofs.«135094_j1228360647292_2_alg».proof.Proof.Gen.ReferenceIdeal
import proofs.«135094_j1228360647292_2_alg».proof.Proof.Gen.Pre_finite_inputs
import proofs.«135094_j1228360647292_2_alg».proof.Proof.KernelRun
import proofs.«135094_j1228360647292_2_alg».proof.Proof.HostChain
import proofs.«135094_j1228360647292_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the result at the reference's last stage of the (agreeing) arguments. -/
theorem algebraic : Cert.algebraic_KernelIdeal_ReferenceIdeal := by
  intro m ρ m' ρ' _ hagree
  refine ⟨fun c => Cert.ReferenceIdeal.ReadP.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Chain.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v83_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
